-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8192 : Shape := ⟨3, ![16, 512, 8192]⟩
abbrev S512x8192 : Shape := ⟨2, ![512, 8192]⟩
abbrev S_ : Shape := ⟨0, ![]⟩

class Facts : Prop where
  bcast_S_S16x512x8192 : S_.BroadcastsInDim S16x512x8192 (![] : Fin 0 → Fin S16x512x8192.rank)
  reducesTo_S16x512x8192_S_d0_1_2 : S16x512x8192.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S16x512x8192 .f32) (main_arg1 : FVec F S512x8192 .f32) : IVec S_ 1 :=
  let main_v0 : FVec F S16x512x8192 .f32 := Host.absf main_arg0
  let main_cst : FVec F S_ .f32 := constant S_ .f32 0x7F800000#32
  let main_v1 : FVec F S16x512x8192 .f32 := broadcastInDim S16x512x8192 ![] bcast_S_S16x512x8192 main_cst
  let main_v2 : IVec S16x512x8192 1 := cmpf .olt main_v0 main_v1
  let main_c : IVec S_ 1 := constantI S_ 1 1#1
  let main_v3 : IVec S_ 1 := (fun x v => Host.reduce IntOp.andi x v reducesTo_S16x512x8192_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S16x512x8192 : Shape := ⟨3, ![16, 512, 8192]⟩
abbrev S512x8192 : Shape := ⟨2, ![512, 8192]⟩
abbrev S8192x8192 : Shape := ⟨2, ![8192, 8192]⟩
abbrev S8192x512 : Shape := ⟨2, ![8192, 512]⟩
abbrev S1024x2048 : Shape := ⟨2, ![1024, 2048]⟩
abbrev S1024x512 : Shape := ⟨2, ![1024, 512]⟩
abbrev S512x2048 : Shape := ⟨2, ![512, 2048]⟩
abbrev S16x512x512 : Shape := ⟨3, ![16, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x512x8192, .f32⟩
  | .hbm, ⟨1, _⟩ => ⟨S512x8192, .f32⟩
  | .hbm, ⟨2, _⟩ => ⟨S8192x8192, .f32⟩
  | .hbm, ⟨3, _⟩ => ⟨S512x8192, .bf16⟩
  | .hbm, ⟨4, _⟩ => ⟨S8192x512, .f32⟩
  | .hbm, ⟨5, _⟩ => ⟨S16x512x512, .f32⟩
  | .local _ .vmem, ⟨0, _⟩ => ⟨S1024x2048, .f32⟩
  | .local _ .vmem, ⟨1, _⟩ => ⟨S1024x2048, .f32⟩
  | .local _ .vmem, ⟨2, _⟩ => ⟨S512x8192, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v6 : BitVec 32 := Scalar.muli arg1 c2048_i32
  v6
def k0_off1 (i : grid0.Coords) : Fin 2 → Nat :=
  let c0_2 : Index := 0#32
  let arg1 : BitVec 32 := BitVec.ofNat 32 (i 1).val
  let c2048_i32 : BitVec 32 := 2048#32
  let v6 : BitVec 32 := Scalar.muli arg1 c2048_i32
  let v7 : BitVec 32 := v6
  let v8 : Index := Scalar.indexCast v7
  ![0, v8.toNat]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x512x8192_S8192x8192 : S16x512x8192.ShapeCasts S8192x8192
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S512x2048 : 0 < S512x2048.numel
  shapeCasts_S512x2048_S512x2048 : S512x2048.ShapeCasts S512x2048
  shapeCasts_S8192x512_S16x512x512 : S8192x512.ShapeCasts S16x512x512
  dot_S1024x2048_S512x2048_S1024x512_1_1_0_0_n_n_wf : DotDims.WF S1024x2048 S512x2048 S1024x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x2048.size a ≤ S512x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S512x8192.size a
  hwx0_1 : ∀ i : grid0.Coords, EltTy.bits .bf16 = 32 ∨ (Rect.block (s := S512x8192) S512x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x512x8192 : Shape := ⟨3, ![16, 512, 8192]⟩
abbrev S512x8192 : Shape := ⟨2, ![512, 8192]⟩
abbrev S16x512x512 : Shape := ⟨3, ![16, 512, 512]⟩

abbrev nBuf : Space → Nat
  | .hbm => 4
  | .vmem => 0
  | .smem => 0
  | _ => 0

abbrev bufTy : (tb : Table) → Fin (tcTables nBuf tb) → BufTy
  | .hbm, ⟨0, _⟩ => ⟨S16x512x8192, .f32⟩
  | .hbm, ⟨1, _⟩ => ⟨S512x8192, .f32⟩
  | .hbm, ⟨2, _⟩ => ⟨S16x512x512, .f32⟩
  | .hbm, ⟨3, _⟩ => ⟨S16x512x512, .f32⟩
  | _, _ => ⟨S16x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S16x512x8192_S512x8192_S16x512x512_2_1_01_0_n_n_wf : DotDims.WF S16x512x8192 S512x8192 S16x512x512 [2] [1] [0, 1] [0] [] []

variable [Facts₀]

def dot_S16x512x8192_S512x8192_S16x512x512_2_1_01_0_n_n : DotDims S16x512x8192 S512x8192 S16x512x512 where
  lhsContracting := [2]
  rhsContracting := [1]
  lhsNonContracting := [0, 1]
  rhsNonContracting := [0]
  lhsBatch := []
  rhsBatch := []
  wf := dot_S16x512x8192_S512x8192_S16x512x512_2_1_01_0_n_n_wf

class Facts : Prop extends Facts₀ where

variable [Facts]
-- ==== Proof.Step.lean ====
/-
  What one grid step leaves behind, as values.

  The product of an [8192, 8192] matrix with the transpose of a [512, 8192] matrix is computed on an 8 × 4 grid:
  step (i, q) sees rows 1024·i … 1024·i + 1023 of the left matrix restricted to columns 2048·q … 2048·q + 2047
  (a [1024, 2048] block), the whole right matrix (of which it cuts the same 2048 columns), and a [1024, 512]
  accumulator that lives across steps. At q = 0 the accumulator is first cleared; at every step the block product is
  added to it; at q = 3 the hyperbolic tangent of the accumulator is written to the output block of row group i.

  The imported run of the kernel body records, for each of the three kinds of step (first, middle, last of a row
  group), the list of stores made into the accumulator and into the output block. This file reads those lists back
  as plain values: the accumulator after a step is `update x w acc` — the old accumulator plus the product of the left block
  with the chunk of the right matrix — with `acc` the zero block at a first step; the output block after a last step
  is the tangent of that. Everything here holds for any reading of the floating-point operations.
-/
import proofs.«122195_j53936199303290_2_alg».proof.Proof.Gen.KernelIdeal.Frame
import Idealize.ShloMosaic.Lib.Pipeline.Value
import Idealize.ShloMosaic.Lib.Tactic

noncomputable section

namespace Cert.KernelIdeal.Step

open Cert.KernelIdeal Cert.KernelIdeal.Gen
open Idealize.ShloMosaic Idealize.ShloMosaic.TcCoe Idealize.SL.Sem Idealize.ShloMosaic.Tactic

variable {F : FTy → Type} [FloatOps F]

/-- The offsets `[0, 0]` are the zero offsets. -/
theorem zero_offsets : (![0, 0] : Fin 2 → Nat) = fun _ => 0 := funext fun a => by fin_cases a <;> rfl

/-- The 2048 columns of the right matrix that step `i` multiplies with: columns `2048 · q` onwards, `q` the
    step's position in its row group. -/
abbrev chunk (i : grid0.Coords) (w : Vec F S512x8192 .bf16) : Vec F S512x2048 .bf16 :=
  View.ld w (Rect.unit (s := S512x8192) (k0_off1 i) S512x2048.size (k0_off1_inb i))

/-- One accumulation: the accumulator `acc` plus the product of the left block `x` with the step's chunk of `w`. -/
abbrev update (i : grid0.Coords) (x : Vec F S1024x2048 .f32) (w : Vec F S512x8192 .bf16) (acc : Vec F S1024x512 .f32) :
    Vec F S1024x512 .f32 :=
  k0_pay2 x (chunk i w) acc

/-- A middle step (neither first nor last of its row group) leaves the accumulator updated once. -/
theorem acc_middle (c : Dev nD) (i : grid0.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (hc0 : ¬cond0_0 i) (hc1 : ¬cond0_1 i)
    (x0 : Vec F S1024x2048 .f32) (x1 : Vec F S512x8192 .bf16) (xs0 : Vec F S1024x512 .f32) :
    sout0_B_0 c i arg2 harg2 arg3 harg3 arg4 harg4 arg5 harg5 hc0 hc1 x0 x1 xs0 = update i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero zero_offsets]
  simp only [View.readAt_eq_ld, harg2.read_unread, harg3.read_unread, harg5.read_unread,
    View.ld_unit_zero (S := S1024x2048) zero_offsets, View.ld_unit_zero (S := S1024x512) zero_offsets]

/-- A last step leaves the accumulator updated once, -/
theorem acc_last (c : Dev nD) (i : grid0.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (hc0 : ¬cond0_0 i) (hc1 : cond0_1 i)
    (x0 : Vec F S1024x2048 .f32) (x1 : Vec F S512x8192 .bf16) (xs0 : Vec F S1024x512 .f32) :
    sout0_C_0 c i arg2 harg2 arg3 harg3 arg4 harg4 arg5 harg5 hc0 hc1 x0 x1 xs0 = update i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zero_offsets]
  simp only [View.readAt_eq_ld, harg2.read_unread, harg3.read_unread, harg5.read_unread,
    View.ld_unit_zero (S := S1024x2048) zero_offsets, View.ld_unit_zero (S := S1024x512) zero_offsets]
  rfl

/-- and the output block at the tangent of the updated accumulator (the accumulator read back after its store). -/
theorem out_last (c : Dev nD) (i : grid0.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (hc0 : ¬cond0_0 i) (hc1 : cond0_1 i)
    (x0 : Vec F S1024x2048 .f32) (x1 : Vec F S512x8192 .bf16) (xs0 : Vec F S1024x512 .f32) :
    out0_C_2 c i arg2 harg2 arg3 harg3 arg4 harg4 arg5 harg5 hc0 hc1 x0 x1 xs0 = k0_pay3 (update i x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zero_offsets, View.readCov_unit_zero (S := S1024x512) _ zero_offsets]
  simp only [View.readAt_eq_ld, harg2.read_unread, harg3.read_unread, harg5.read_unread,
    View.ld_unit_zero (S := S1024x2048) zero_offsets, View.ld_unit_zero (S := S1024x512) zero_offsets]
  rfl

/-- A first step clears the accumulator, reads the zero block back, and leaves it updated once from zero. -/
theorem acc_first (c : Dev nD) (i : grid0.Coords) (arg2 : Memref sig .tc .vmem S1024x2048 .f32) (harg2 : arg2.IsWhole) (arg3 : Memref sig .tc .vmem S512x8192 .bf16) (harg3 : arg3.IsWhole) (arg4 : Memref sig .tc .vmem S1024x512 .f32) (harg4 : arg4.IsWhole) (arg5 : Memref sig .tc .vmem S1024x512 .f32) (harg5 : arg5.IsWhole) (hc0 : cond0_0 i) (hc1 : ¬cond0_1 i)
    (x0 : Vec F S1024x2048 .f32) (x1 : Vec F S512x8192 .bf16) :
    sout0_A_0 c i arg2 harg2 arg3 harg3 arg4 harg4 arg5 harg5 hc0 hc1 x0 x1 = update i x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x512) zero_offsets, View.readCov_unit_zero (S := S1024x512) _ zero_offsets]
  simp only [View.readAt_eq_ld, harg2.read_unread, harg3.read_unread,
    View.ld_unit_zero (S := S1024x2048) zero_offsets]
  rfl

end Cert.KernelIdeal.Step

end
-- ==== Proof.StepValue.lean ====
/-
  One accumulation and the final tangent, read entry by entry over the extended reals.

  With every floating-point operation read exactly (a change of float format is the identity, a product of
  matrices into a zero start is the plain sum of products) one accumulation adds to entry (r, d) of the
  accumulator the sum, over the 2048 columns j of the step's chunk, of the left block's entry (r, j) times the
  right chunk's entry (d, j); the cleared accumulator is zero at every entry; and the output block is the
  hyperbolic tangent entry by entry.
-/
import proofs.«122195_j53936199303290_2_alg».proof.Proof.Step
import Idealize.ShloMosaic.Lib.ValueIdx
import Idealize.ShloMosaic.PureOps.Ideal.Laws

noncomputable section

namespace Cert.KernelIdeal.Step

open Cert.KernelIdeal Cert.KernelIdeal.Gen
open Idealize.ShloMosaic Idealize.ShloMosaic.TcCoe Idealize.SL.Sem Idealize.ShloMosaic.ValueIdx

/-- The left operand of the block product is read at (row of the result entry, contracted position); -/
theorem lhs_row (y : S1024x512.Idx) (q : dot_S1024x2048_S512x2048_S1024x512_1_1_0_0_n_n.contr.Idx) :
    (dot_S1024x2048_S512x2048_S1024x512_1_1_0_0_n_n.lhsIdx y q 0).val = (y 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem lhs_pos (y : S1024x512.Idx) (q : dot_S1024x2048_S512x2048_S1024x512_1_1_0_0_n_n.contr.Idx) :
    (dot_S1024x2048_S512x2048_S1024x512_1_1_0_0_n_n.lhsIdx y q 1).val = (q ⟨0, by decide⟩).val :=
  dot_S1024x2048_S512x2048_S1024x512_1_1_0_0_n_n.lhsIdx_val_of_single rfl y q
/-- the right operand at (column of the result entry, contracted position): the product is with a transpose. -/
theorem rhs_row (y : S1024x512.Idx) (q : dot_S1024x2048_S512x2048_S1024x512_1_1_0_0_n_n.contr.Idx) :
    (dot_S1024x2048_S512x2048_S1024x512_1_1_0_0_n_n.rhsIdx y q 0).val = (y 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem rhs_pos (y : S1024x512.Idx) (q : dot_S1024x2048_S512x2048_S1024x512_1_1_0_0_n_n.contr.Idx) :
    (dot_S1024x2048_S512x2048_S1024x512_1_1_0_0_n_n.rhsIdx y q 1).val = (q ⟨0, by decide⟩).val :=
  dot_S1024x2048_S512x2048_S1024x512_1_1_0_0_n_n.rhsIdx_val_of_single rfl y q

/-- The block product into a zero start, at entry (r, d): the sum over the 2048 contracted positions. -/
theorem product_apply (a : FVec Ideal S1024x2048 .bf16) (b : FVec Ideal S512x2048 .bf16) (r : Fin 1024) (d : Fin 512) :
    matmul (F := Ideal) dot_S1024x2048_S512x2048_S1024x512_1_1_0_0_n_n none a b (constant (F := Ideal) S1024x512 .f32 0x00000000#32) (ix2 r d)
      = ∑ j : Fin 2048, a (ix2 r j) * b (ix2 d j) := by
  refine (Ideal.matmul_constant_zero_apply dot_S1024x2048_S512x2048_S1024x512_1_1_0_0_n_n none a b (ix2 r d)).trans ?_
  rw [← Equiv.sum_comp (contrEquiv1 dot_S1024x2048_S512x2048_S1024x512_1_1_0_0_n_n 2048 rfl rfl).symm]
  refine Finset.sum_congr rfl fun j _ => ?_
  have hj := contrEquiv1_symm_val dot_S1024x2048_S512x2048_S1024x512_1_1_0_0_n_n 2048 rfl rfl j
  have el : dot_S1024x2048_S512x2048_S1024x512_1_1_0_0_n_n.lhsIdx (ix2 r d) ((contrEquiv1 dot_S1024x2048_S512x2048_S1024x512_1_1_0_0_n_n 2048 rfl rfl).symm j) = ix2 r j := funext fun a => Fin.ext (by
    match a with
    | ⟨0, _⟩ => exact lhs_row _ _
    | ⟨1, _⟩ => exact (lhs_pos _ _).trans hj)
  have er : dot_S1024x2048_S512x2048_S1024x512_1_1_0_0_n_n.rhsIdx (ix2 r d) ((contrEquiv1 dot_S1024x2048_S512x2048_S1024x512_1_1_0_0_n_n 2048 rfl rfl).symm j) = ix2 d j := funext fun a => Fin.ext (by
    match a with
    | ⟨0, _⟩ => exact rhs_row _ _
    | ⟨1, _⟩ => exact (rhs_pos _ _).trans hj)
  rw [el, er]

/-- One accumulation at entry (r, d): the old entry plus the sum of products along the step's 2048 columns. -/
theorem update_apply (i : grid0.Coords) (x : Vec Ideal S1024x2048 .f32) (w : Vec Ideal S512x8192 .bf16)
    (acc : Vec Ideal S1024x512 .f32) (r : Fin 1024) (d : Fin 512) :
    update (F := Ideal) i x w acc (ix2 r d)
      = acc (ix2 r d) + ∑ j : Fin 2048, x (ix2 r j) * chunk (F := Ideal) i w (ix2 d j) := by
  unfold update k0_pay2
  simp only [shapeCast_self]
  exact congrArg (acc (ix2 r d) + ·) (product_apply _ _ r d)

/-- The cleared accumulator is zero at every entry. -/
theorem cleared_apply (y : S1024x512.Idx) : k0_pay1 (F := Ideal) y = 0 := by
  unfold k0_pay1
  simp only [shapeCast_self]
  exact Ideal.ofBits_zero_f32

/-- The output block is the tangent of the accumulator, entry by entry. -/
theorem tangent_apply (acc : Vec Ideal S1024x512 .f32) (y : S1024x512.Idx) :
    k0_pay3 (F := Ideal) acc y = Ideal.tanh (acc y) := rfl

end Cert.KernelIdeal.Step

end
-- ==== Proof.Entries.lean ====
/-
  Entries of a two-axis array of extended reals named by natural-number coordinates.

  A block of a matrix is addressed by "row 1024·i + r, column 2048·q + j": arithmetic on natural numbers. An array's
  own index type carries, with each coordinate, the proof that it is in range, which makes such arithmetic awkward to
  rewrite. `at2 X a b` is entry (a, b) of `X` for coordinates in range and zero outside; inside the array it is the
  array's entry (`at2_val`, `at2_of_lt`), and natural-number equations rewrite its coordinates freely.
-/
import Idealize.ShloMosaic.Lib.ValueIdx
import Idealize.ShloMosaic.PureOps.Ideal

namespace Entries

open Idealize.ShloMosaic Idealize.ShloMosaic.ValueIdx

/-- Entry (a, b) of a two-axis array, zero when a coordinate is out of range. -/
noncomputable def at2 {n0 n1 : Nat} (X : (⟨2, ![n0, n1]⟩ : Shape).Idx → EReal) (a b : ℕ) : EReal :=
  if h : a < n0 ∧ b < n1 then X (ix2 ⟨a, h.1⟩ ⟨b, h.2⟩) else 0

theorem at2_of_lt {n0 n1 : Nat} (X : (⟨2, ![n0, n1]⟩ : Shape).Idx → EReal) (a b : ℕ) (ha : a < n0) (hb : b < n1) :
    at2 X a b = X (ix2 ⟨a, ha⟩ ⟨b, hb⟩) := dif_pos ⟨ha, hb⟩

theorem at2_val {n0 n1 : Nat} (X : (⟨2, ![n0, n1]⟩ : Shape).Idx → EReal) (p : Fin n0) (q : Fin n1) :
    at2 X p.val q.val = X (ix2 p q) := dif_pos ⟨p.isLt, q.isLt⟩

end Entries
-- ==== Proof.ChunkSum.lean ====
/-
  Regrouping a sum of 8192 terms into four consecutive chunks of 2048.

  The contracted axis of the product has 8192 positions. One side sums them in one sweep; the other walks
  the axis in four chunks of 2048 consecutive positions and adds the chunk sums one after the other onto a zero
  start. In a commutative additive monoid (the extended reals with their addition are one) the two agree:
  position `v` is `2048 * q + j` for exactly one chunk `q < 4` and one offset `j < 2048`, and a finite sum
  may be regrouped along that bijection. Nothing is asked of the terms: no finiteness, no sign.
-/
import Mathlib.Algebra.BigOperators.Fin
import Mathlib.Logic.Equiv.Fin.Basic

namespace ChunkSum

open Finset

variable {M : Type*} [AddCommMonoid M]

/-- A sum over the 8192 positions is the sum over the four chunks of the sums over each chunk's 2048 positions,
    position `2048 * q + j` being offset `j` of chunk `q`. -/
theorem sum_eq_sum_chunks (f : ℕ → M) :
    ∑ v : Fin 8192, f v.val = ∑ q : Fin 4, ∑ j : Fin 2048, f (2048 * q.val + j.val) := by
  have h := (finProdFinEquiv (m := 4) (n := 2048)).sum_comp (fun v : Fin (4 * 2048) => f v.val)
  rw [Fintype.sum_prod_type] at h
  refine h.symm.trans ?_
  refine Finset.sum_congr rfl fun q _ => Finset.sum_congr rfl fun j _ => ?_
  show f (finProdFinEquiv (q, j)).val = _
  rw [finProdFinEquiv_apply_val, Nat.add_comm]

/-- The four chunk sums added one after the other onto a zero start, the order an accumulator that is cleared at
    the first chunk and grows by one chunk sum per step produces, are the one-sweep sum. -/
theorem accumulate_eq_sum (f : ℕ → M) :
    (((0 + ∑ j : Fin 2048, f (2048 * 0 + j.val)) + ∑ j : Fin 2048, f (2048 * 1 + j.val))
        + ∑ j : Fin 2048, f (2048 * 2 + j.val)) + ∑ j : Fin 2048, f (2048 * 3 + j.val)
      = ∑ v : Fin 8192, f v.val := by
  rw [sum_eq_sum_chunks, Fin.sum_univ_four, zero_add]
  rfl

/-- The sum of the terms of chunk `q`: positions `2048 * q` to `2048 * q + 2047`. -/
def chunk (f : ℕ → M) (q : ℕ) : M := ∑ j : Fin 2048, f (2048 * q + j.val)

/-- The accumulator after chunk `q` has been added: cleared and given chunk 0 at `q = 0`, then one more chunk
    sum per step. -/
def running (f : ℕ → M) : ℕ → M
  | 0 => 0 + chunk f 0
  | q + 1 => running f q + chunk f (q + 1)

theorem running_zero (f : ℕ → M) : running f 0 = 0 + chunk f 0 := rfl
theorem running_succ (f : ℕ → M) (q : ℕ) : running f (q + 1) = running f q + chunk f (q + 1) := rfl

/-- After the fourth chunk the accumulator holds the one-sweep sum of all 8192 terms. -/
theorem running_three (f : ℕ → M) : running f 3 = ∑ v : Fin 8192, f v.val :=
  accumulate_eq_sum f

end ChunkSum
-- ==== Proof.Blocks.lean ====
/-
  What a grid step's input blocks hold, read off the two matrices as the kernel region finds them.

  Step `t` of the 32 (row group `t / 4`, chunk `t % 4`) is handed rows `1024·(t / 4)` onwards and columns
  `2048·(t % 4)` onwards of the left [8192, 8192] matrix as its [1024, 2048] block, and the whole right
  [512, 8192] matrix, of which the body cuts columns `2048·(t % 4)` onwards. So entry (r, j) of the left block is
  entry (1024·(t / 4) + r, 2048·(t % 4) + j) of the left matrix, and entry (d, j) of the right chunk is entry
  (d, 2048·(t % 4) + j) of the right matrix. Put into one accumulation this gives the step's contribution to
  entry (r, d) of the accumulator as the sum of the products along chunk `t % 4` of row `1024·(t / 4) + r` of the
  left matrix and row `d` of the right one.
-/
import proofs.«122195_j53936199303290_2_alg».proof.Proof.StepValue
import proofs.«122195_j53936199303290_2_alg».proof.Proof.Entries
import proofs.«122195_j53936199303290_2_alg».proof.Proof.ChunkSum
import Idealize.ShloMosaic.Lib.Pipeline.Value

noncomputable section

namespace Cert.KernelIdeal.Blocks

open Cert.KernelIdeal Cert.KernelIdeal.Gen Entries
open Idealize.ShloMosaic Idealize.ShloMosaic.TcCoe Idealize.SL.Sem Idealize.ShloMosaic.ValueIdx

variable (m : (ℓ : Loc nD τ sig) → Buf (Elt Ideal) ℓ)

/-- The left matrix [8192, 8192] and the right matrix [512, 8192] as the kernel region finds them. -/
abbrev left (c : Dev nD) : S8192x8192.Idx → EReal := V m c main_v0
abbrev right (c : Dev nD) : S512x8192.Idx → EReal := V m c main_v1

/-- Where step `t`'s blocks sit: the left block at block row `t / 4`, block column `t % 4`; the right window always
    the whole matrix; the chunk number the body computes is `t % 4`; the output block at block row `t / 4`. -/
theorem point_facts : ∀ t : Fin cfg0.N, win0_0.index t 0 = t.val / 4 ∧ win0_0.index t 1 = t.val % 4
    ∧ win0_1.index t 0 = 0 ∧ win0_1.index t 1 = 0 ∧ ((grid0.coords t) 1).val = t.val % 4
    ∧ win0_2.index t 0 = t.val / 4 ∧ win0_2.index t 1 = 0 :=
  (by decide +kernel : ∀ t : Fin grid0.N, _)

/-- Entry (r, j) of step `t`'s left block is entry (1024·(t / 4) + r, 2048·(t % 4) + j) of the left matrix. -/
theorem left_block_apply (c : Dev nD) (t : Fin cfg0.N) (r : Fin 1024) (j : Fin 2048) :
    (iblk m c 0 t : Vec Ideal S1024x2048 .f32) (ix2 r j)
      = at2 (left m c) (1024 * (t.val / 4) + r.val) (2048 * (t.val % 4) + j.val) := by
  obtain ⟨e0, e1, -⟩ := point_facts t
  have hN : t.val < 32 := lt_of_lt_of_eq t.isLt (show cfg0.N = 32 from N_0)
  rw [at2_of_lt _ _ _ (by have := r.isLt; omega) (by have := j.isLt; omega)]
  unfold iblk
  rw [View.read_apply]
  show V m c main_v0 _ = V m c main_v0 _
  congr 1
  funext a
  apply Fin.ext
  match a with
  | ⟨0, _⟩ => show win0_0.index t 0 * 1024 + 1 * r.val = 1024 * (t.val / 4) + r.val; rw [e0]; omega
  | ⟨1, _⟩ => show win0_0.index t 1 * 2048 + 1 * j.val = 2048 * (t.val % 4) + j.val; rw [e1]; omega

/-- Entry (d, j) of the chunk step `t` cuts off the right matrix is entry (d, 2048·(t % 4) + j) of that matrix. -/
theorem right_chunk_apply (c : Dev nD) (t : Fin cfg0.N) (d : Fin 512) (j : Fin 2048) :
    Step.chunk (F := Ideal) (grid0.coords t) (iblk m c 1 t) (ix2 d j)
      = at2 (right m c) d.val (2048 * (t.val % 4) + j.val) := by
  obtain ⟨-, -, e2, e3, e4, -⟩ := point_facts t
  have hoff := k0_off1_eq (grid0.coords t)
  have ho0 : k0_off1 (grid0.coords t) 0 = 0 := by rw [hoff]; rfl
  have ho1 : k0_off1 (grid0.coords t) 1 = 2048 * (t.val % 4) := by
    rw [hoff]; show 2048 * ((grid0.coords t) 1).val = _; rw [e4]
  rw [at2_of_lt _ _ _ d.isLt (by have := j.isLt; omega)]
  unfold Step.chunk
  show (iblk m c 1 t : Vec Ideal S512x8192 .bf16) _ = _
  unfold iblk
  rw [View.read_apply]
  show V m c main_v1 _ = V m c main_v1 _
  congr 1
  funext a
  apply Fin.ext
  match a with
  | ⟨0, _⟩ => show win0_1.index t 0 * 512 + 1 * (k0_off1 (grid0.coords t) 0 + 1 * d.val) = d.val; rw [e2, ho0]; omega
  | ⟨1, _⟩ => show win0_1.index t 1 * 8192 + 1 * (k0_off1 (grid0.coords t) 1 + 1 * j.val) = 2048 * (t.val % 4) + j.val; rw [e3, ho1]; omega

/-- The products summed into entry (r, d) of row group `g`: position `v` of row `1024·g + r` of the left matrix
    times position `v` of row `d` of the right matrix. -/
abbrev term (c : Dev nD) (g : ℕ) (r : Fin 1024) (d : Fin 512) : ℕ → EReal :=
  fun v => at2 (left m c) (1024 * g + r.val) v * at2 (right m c) d.val v

/-- One accumulation at step `t`, entry (r, d): the old entry plus chunk `t % 4` of the products of row group `t / 4`. -/
theorem step_apply (c : Dev nD) (t : Fin cfg0.N) (acc : Vec Ideal S1024x512 .f32) (r : Fin 1024) (d : Fin 512) :
    Step.update (F := Ideal) (grid0.coords t) (iblk m c 0 t) (iblk m c 1 t) acc (ix2 r d)
      = acc (ix2 r d) + ChunkSum.chunk (term m c (t.val / 4) r d) (t.val % 4) := by
  refine (Step.update_apply (grid0.coords t) (iblk m c 0 t) (iblk m c 1 t) acc r d).trans ?_
  refine congrArg (acc (ix2 r d) + ·) (Finset.sum_congr rfl fun j _ => ?_)
  rw [left_block_apply m c t r j, right_chunk_apply m c t d j]

end Cert.KernelIdeal.Blocks

end
-- ==== Proof.Accum.lean ====
/-
  The accumulator step by step, and the output block at the last step of a row group.

  The 32 steps run row group by row group, four steps each. The imported module states what the accumulator and the
  output block hold after step `n` by recursion on `n`, through the three kinds of step. Read with the values found
  for each kind this recursion says: at the first step of a row group (`n % 4 = 0`) the accumulator is one
  accumulation from the cleared block; at every other step it is one accumulation from what the step before left;
  and at a last step (`n % 4 = 3`) the output block is the tangent of the accumulator just stored.

  Entry by entry over the extended reals this is the running sum of chunk sums: after step `n` entry (r, d) holds
  `0 + chunk 0`, then `+ chunk 1`, ... up to chunk `n % 4` of the products of row `1024·(n / 4) + r` of the left
  matrix with row `d` of the right one (by induction on `n`: a first step restarts the sum, any other step extends
  the sum of the step before, which belongs to the same row group). After a last step all four chunks are in, and
  the regrouping law makes the accumulator the full sum over the 8192 positions; the output block is its tangent.
-/
import proofs.«122195_j53936199303290_2_alg».proof.Proof.Blocks

noncomputable section

namespace Cert.KernelIdeal.Accum

open Cert.KernelIdeal Cert.KernelIdeal.Gen
open Idealize.ShloMosaic Idealize.ShloMosaic.TcCoe Idealize.SL.Sem Idealize.ShloMosaic.ValueIdx

section AnyReading

variable {F : FTy → Type} [FloatOps F]
variable (m : (ℓ : Loc nD τ sig) → Buf (Elt F) ℓ)

/-- After the first step of a row group: one accumulation from the cleared block. -/
theorem scratch_first (c : Dev nD) (t : Fin cfg0.N) (h0 : t.val % 4 = 0) :
    (outsAt0 m c t.val t.isLt).2
      = Step.update (F := F) (grid0.coords t) (iblk m c 0 t) (iblk m c 1 t) (k0_pay1 (F := F)) := by
  have h1 : ¬t.val % 4 = 3 := by omega
  rw [outsAt0_A m c t h0 h1]
  dsimp only
  exact Step.acc_first (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After any other step: one accumulation from what the step before left. -/
theorem scratch_next (c : Dev nD) (t : Fin cfg0.N) (h0 : ¬t.val % 4 = 0) :
    (outsAt0 m c t.val t.isLt).2
      = Step.update (F := F) (grid0.coords t) (iblk m c 0 t) (iblk m c 1 t)
          (outsAt0 m c (t.val - 1) (Nat.lt_of_le_of_lt (Nat.sub_le _ _) t.isLt)).2 := by
  by_cases h1 : t.val % 4 = 3
  · rw [outsAt0_C m c t h0 h1]
    dsimp only
    exact Step.acc_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _
  · rw [outsAt0_B m c t h0 h1]
    dsimp only
    exact Step.acc_middle (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _

/-- After a last step the output block is the tangent of the accumulator that step left. -/
theorem out_last_step (c : Dev nD) (t : Fin cfg0.N) (h1 : t.val % 4 = 3) :
    (outsAt0 m c t.val t.isLt).1 = k0_pay3 (F := F) (outsAt0 m c t.val t.isLt).2 := by
  have h0 : ¬t.val % 4 = 0 := by omega
  rw [outsAt0_C m c t h0 h1]
  dsimp only
  exact (Step.out_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans
    (congrArg (k0_pay3 (F := F)) (Step.acc_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).symm)

end AnyReading

variable (m : (ℓ : Loc nD τ sig) → Buf (Elt Ideal) ℓ)

/-- THE ACCUMULATOR, ENTRY BY ENTRY: after step `n` entry (r, d) is the running sum, through chunk `n % 4`, of the
    products of row group `n / 4`. -/
theorem scratch_apply (c : Dev nD) : ∀ (n : ℕ) (h : n < cfg0.N) (r : Fin 1024) (d : Fin 512),
    (outsAt0 m c n h).2 (ix2 r d) = ChunkSum.running (Blocks.term m c (n / 4) r d) (n % 4) := by
  intro n
  induction n with
  | zero =>
    intro h r d
    have hs : Step.update (F := Ideal) (grid0.coords ⟨0, h⟩) (iblk m c 0 ⟨0, h⟩) (iblk m c 1 ⟨0, h⟩) (k0_pay1 (F := Ideal)) (ix2 r d)
        = k0_pay1 (F := Ideal) (ix2 r d) + ChunkSum.chunk (Blocks.term m c (0 / 4) r d) (0 % 4) :=
      Blocks.step_apply m c ⟨0, h⟩ (k0_pay1 (F := Ideal)) r d
    rw [show (outsAt0 m c 0 h).2 = _ from scratch_first m c ⟨0, h⟩ (Nat.zero_mod 4), hs, Step.cleared_apply]
    rfl
  | succ n ih =>
    intro h r d
    by_cases h0 : (n + 1) % 4 = 0
    · have hs : Step.update (F := Ideal) (grid0.coords ⟨n + 1, h⟩) (iblk m c 0 ⟨n + 1, h⟩) (iblk m c 1 ⟨n + 1, h⟩) (k0_pay1 (F := Ideal)) (ix2 r d)
          = k0_pay1 (F := Ideal) (ix2 r d) + ChunkSum.chunk (Blocks.term m c ((n + 1) / 4) r d) ((n + 1) % 4) :=
        Blocks.step_apply m c ⟨n + 1, h⟩ (k0_pay1 (F := Ideal)) r d
      rw [show (outsAt0 m c (n + 1) h).2 = _ from scratch_first m c ⟨n + 1, h⟩ h0, hs, Step.cleared_apply, h0]
      rfl
    · have hs : ∀ acc : Vec Ideal S1024x512 .f32,
          Step.update (F := Ideal) (grid0.coords ⟨n + 1, h⟩) (iblk m c 0 ⟨n + 1, h⟩) (iblk m c 1 ⟨n + 1, h⟩) acc (ix2 r d)
          = acc (ix2 r d) + ChunkSum.chunk (Blocks.term m c ((n + 1) / 4) r d) ((n + 1) % 4) :=
        fun acc => Blocks.step_apply m c ⟨n + 1, h⟩ acc r d
      have hprev : (outsAt0 m c (n + 1) h).2
          = Step.update (F := Ideal) (grid0.coords ⟨n + 1, h⟩) (iblk m c 0 ⟨n + 1, h⟩) (iblk m c 1 ⟨n + 1, h⟩)
              (outsAt0 m c n (Nat.lt_of_succ_lt h)).2 :=
        scratch_next m c ⟨n + 1, h⟩ h0
      have e1 : (n + 1) / 4 = n / 4 := by omega
      have e2 : (n + 1) % 4 = n % 4 + 1 := by omega
      rw [hprev, hs, ih (Nat.lt_of_succ_lt h) r d, e1, e2]
      rfl

/-- THE OUTPUT BLOCK, ENTRY BY ENTRY: after the last step `t` of a row group entry (r, d) is the tangent of the sum,
    over all 8192 positions, of the products of row `1024·(t / 4) + r` of the left matrix with row `d` of the right. -/
theorem out_apply (c : Dev nD) (t : Fin cfg0.N) (h1 : t.val % 4 = 3) (r : Fin 1024) (d : Fin 512) :
    (outsAt0 m c t.val t.isLt).1 (ix2 r d)
      = Ideal.tanh (∑ v : Fin 8192, Blocks.term m c (t.val / 4) r d v.val) := by
  rw [out_last_step m c t h1, Step.tangent_apply, scratch_apply m c t.val t.isLt r d, h1, ChunkSum.running_three]

end Cert.KernelIdeal.Accum

end
-- ==== Proof.Result.lean ====
/-
  What the kernel region leaves in its output array.

  The region's output array [8192, 512] is written back block by block: the last step of row group `g` (step
  `4·g + 3`) writes rows `1024·g` to `1024·g + 1023`, all 512 columns. By the entrywise reading of the output block,
  entry (R, d) of the array ends as the tangent of the sum over the 8192 positions `v` of (left matrix at (R, v))
  times (right matrix at (d, v)) — `product`. Every row belongs to exactly one row group, so the eight write-backs
  cover the array.
-/
import proofs.«122195_j53936199303290_2_alg».proof.Proof.Accum

noncomputable section

namespace Cert.KernelIdeal.Result

open Cert.KernelIdeal Cert.KernelIdeal.Gen Entries
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region's output array: entry (R, d) is the tangent of the product of row `R` of the left matrix with row `d`
    of the right matrix. -/
def product (c : Dev nD) : S8192x512.Idx → EReal := fun i =>
  Ideal.tanh (∑ v : Fin 8192, at2 (Blocks.left m c) (i 0).val v.val * at2 (Blocks.right m c) (i 1).val v.val)

/-- Entry `y` of the output block after the last step `t` of a row group is entry `i` of `product`, `i` being the
    place of `y` in the array: row `1024·(t / 4)` + the row of `y`, the same column. -/
theorem block_eq_product (c : Dev nD) (t : Fin cfg0.N) (h3 : t.val % 4 = 3) (y : S1024x512.Idx) (i : S8192x512.Idx)
    (h0 : (i 0).val = 1024 * (t.val / 4) + (y 0).val) (h1 : (i 1).val = (y 1).val) :
    (outsAt0 m c t.val t.isLt).1 y = product m c i := by
  obtain ⟨r, d, rfl⟩ : ∃ (r : Fin 1024) (d : Fin 512), y = ix2 r d := ⟨y 0, y 1, eq_ix2 y⟩
  rw [Accum.out_apply m c t h3 r d]
  unfold product
  rw [h0, h1]

/-- WHAT A WRITE-BACK WRITES: the block of `product` under the step's output window. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, -, e5, e6⟩ := Blocks.point_facts t
  show (cfg0.win 2).cut (grid0.coords t) ((dats m 0 c).after 2 t) = _
  rw [after0_2]
  funext y
  rw [View.read_apply]
  refine block_eq_product m c t h3 y _ ?_ ?_
  · show win0_2.index t 0 * 1024 + 1 * (y 0).val = 1024 * (t.val / 4) + (y 0).val
    rw [e5]; omega
  · show win0_2.index t 1 * 512 + 1 * (y 1).val = (y 1).val
    rw [e6]; omega

/-- An index of the array is under step `t`'s output block iff each coordinate is in the block's range. -/
theorem mem_block (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Row `R` is written back by the last step of its row group `R / 1024`. -/
theorem covered (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 32 := N_0
  let t : Fin cfg0.N := ⟨4 * ((i 0).val / 1024) + 3, by rw [hN]; omega⟩
  have ht : t.val = 4 * ((i 0).val / 1024) + 3 := rfl
  obtain ⟨-, -, -, -, -, e5, e6⟩ := Blocks.point_facts t
  refine ⟨t, (flush0_2 t).mpr (by rw [ht]; omega), ?_⟩
  rw [mem_block]
  intro a
  match a with
  | ⟨0, _⟩ => show win0_2.index t 0 * 1024 ≤ (i 0).val ∧ (i 0).val < win0_2.index t 0 * 1024 + 1024; rw [e5, ht]; omega
  | ⟨1, _⟩ => show win0_2.index t 1 * 512 ≤ (i 1).val ∧ (i 1).val < win0_2.index t 1 * 512 + 512; rw [e6]; omega

/-- THE ARRAY AFTER THE REGION is `product`. -/
theorem region_result (c : Dev nD) : (dats m 0 c).arrAt 2 cfg0.N = product m c :=
  (dats m 0 c).arrAt_eq_of_cover 2 (product m c) (flushed_eq m c) (covered)

/-- `product` at explicit coordinates, with the matrices' own entries. -/
theorem product_apply (c : Dev nD) (R : Fin 8192) (d : Fin 512) :
    product m c (ix2 R d)
      = Ideal.tanh (∑ v : Fin 8192, Blocks.left m c (ix2 R v) * Blocks.right m c (ix2 d v)) := by
  unfold product
  exact congrArg Ideal.tanh (Finset.sum_congr rfl fun v _ => congrArg₂ (· * ·) (at2_val _ R v) (at2_val _ d v))

end Cert.KernelIdeal.Result

end
-- ==== Proof.Spec.lean ====
/-
  The function both programs compute, over the extended reals.

  For `x` of shape [16, 512, 8192] and `w` of shape [512, 8192], entry (b, s, d) of the result [16, 512, 512] is

      tanh ( Σ_{v < 8192}  x (b, s, v) · w (d, v) ),

  the hyperbolic tangent (with its limits ±1 at the infinities) of the product of the (b, s) row of `x` with row
  `d` of `w`. One program forms each such sum in one sweep; the other flattens (b, s) to a row number, walks the
  8192 positions in four chunks while adding into an accumulator, and reshapes back. Both are this function.
-/
import Idealize.ShloMosaic.Lib.ValueIdx
import Idealize.ShloMosaic.PureOps.Ideal

noncomputable section

namespace Spec

open Idealize.ShloMosaic Idealize.ShloMosaic.ValueIdx

/-- The tangent of the row-by-row products of `x` and `w`. -/
def tanhProduct (x : (⟨3, ![16, 512, 8192]⟩ : Shape).Idx → EReal) (w : (⟨2, ![512, 8192]⟩ : Shape).Idx → EReal) :
    (⟨3, ![16, 512, 512]⟩ : Shape).Idx → EReal :=
  fun i => Ideal.tanh (∑ v : Fin 8192, x (ix3 (i 0) (i 1) v) * w (ix2 (i 2) v))

end Spec

end
-- ==== Proof.Whole.lean ====
/-
  What the kernel program leaves in its result, as one function of its two arguments.

  Around the region the program only re-lays data out. Before it, the first argument [16, 512, 8192] is reshaped to
  the left matrix [8192, 8192] (row `512·b + s` is the argument's (b, s, ·)), and the second argument [512, 8192]
  changes float format to become the right matrix — the identity on extended reals. After it, the region's
  [8192, 512] output array is reshaped to the result [16, 512, 512] (entry (b, s, d) is row `512·b + s`, column `d`).
  With the region's array known entry by entry, entry (b, s, d) of the result is the tangent of the sum over `v` of
  argument one at (b, s, v) times argument two at (d, v).
-/
import proofs.«122195_j53936199303290_2_alg».proof.Proof.Result
import proofs.«122195_j53936199303290_2_alg».proof.Proof.Spec
import Idealize.ShloMosaic.Lib.StableHlo.Run
import Idealize.ShloMosaic.Lib.Tactic

noncomputable section

namespace Cert.KernelIdeal.Whole

open Cert.KernelIdeal Cert.KernelIdeal.Gen Cert.KernelIdeal.Result
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The left matrix is the first argument reshaped to [8192, 8192]. -/
theorem left_eq (c : Dev nD) :
    Blocks.left m c = shapeCast S8192x8192 (m ((c : Thread nD τ).loc main_arg0)) Facts₀.shapeCasts_S16x512x8192_S8192x8192 := by
  show StableHlo.after hostOps0 (fun b => m (c, b)) (Proc.devRef .tc main_v0) = _
  after_results
  try rfl

/-- The right matrix is the second argument in another float format: the same extended reals. -/
theorem right_eq (c : Dev nD) :
    Blocks.right m c = truncf (F := Ideal) .bf16 (m ((c : Thread nD τ).loc main_arg1)) Facts₀.bitsLt_bf16_f32 := by
  show StableHlo.after hostOps0 (fun b => m (c, b)) (Proc.devRef .tc main_v1) = _
  after_results
  try rfl

/-- Reshaping to the result's shape, entry by entry through a trivial change of element type, is the reshape. -/
theorem reshape_cast (X : S8192x512.Idx → EReal) (he : main_v2.ty.elt = main_v3.ty.elt)
    (hn : main_v2.ty.shape.ShapeCasts main_v3.ty.shape) :
    (fun i => he ▸ shapeCast main_v3.ty.shape X hn i : S16x512x512.Idx → Elt Ideal main_v3.ty.elt)
      = shapeCast S16x512x512 X Facts₀.shapeCasts_S8192x512_S16x512x512 := rfl

/-- The program's result is the region's output array reshaped to [16, 512, 512]. -/
theorem tail_result (c : Dev nD) :
    Pipeline.afterTail₀ cfgs (dats m) 0 (V0 m) [hostOps1] c main_v3
      = shapeCast S16x512x512 (product m c) Facts₀.shapeCasts_S8192x512_S16x512x512 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = product m c :=
    (Pipeline.withArrays_arr spec0 launch0.win.arr_inj c _ _ 2).trans (region_result m c)
  rw [e]
  exact reshape_cast (product m c) rfl Facts₀.shapeCasts_S8192x512_S16x512x512

/-- THE RUN, READ: every weakly fair execution ends with the result at the reshaped `product` and both arguments
    as they were. -/
theorem run : θ_run defs (onTc (τ := τ) (main (F := Ideal))) ⟨m, fun _ => 0, ρ⟩ fun r => ∀ c : Dev nD,
      r.2.mem ((c.tc : Thread nD τ).loc main_v3) = shapeCast S16x512x512 (product m c) Facts₀.shapeCasts_S8192x512_S16x512x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- Entry (b, s, d) of the result: the tangent of the product of the (b, s) row of the first argument with row `d`
    of the second. -/
theorem result_eq (c : Dev nD) :
    shapeCast S16x512x512 (product m c) Facts₀.shapeCasts_S8192x512_S16x512x512
      = Spec.tanhProduct (m ((c.tc : Thread nD τ).loc main_arg0)) (m ((c.tc : Thread nD τ).loc main_arg1)) := by
  funext i
  obtain ⟨b, s, d, rfl⟩ : ∃ (b : Fin 16) (s : Fin 512) (d : Fin 512), i = ix3 b s d := ⟨i 0, i 1, i 2, eq_ix3 i⟩
  have hb : b.val < 16 := b.isLt
  have hs : s.val < 512 := s.isLt
  have hR : 512 * b.val + s.val < 8192 := by omega
  refine (shapeCast_apply (product m c) Facts₀.shapeCasts_S8192x512_S16x512x512 (ix3 b s d) (ix2 ⟨512 * b.val + s.val, hR⟩ d) ?_).trans ?_
  · rw [Shape.rowMajor_val_two, Shape.rowMajor_val_three]
    show (512 * b.val + s.val) * 512 + d.val = (b.val * 512 + s.val) * 512 + d.val
    omega
  · rw [product_apply]
    unfold Spec.tanhProduct
    refine congrArg Ideal.tanh (Finset.sum_congr rfl fun v _ => congrArg₂ (· * ·) ?_ ?_)
    · rw [left_eq]
      refine shapeCast_apply _ _ _ (ix3 b s v) ?_
      rw [Shape.rowMajor_val_two, Shape.rowMajor_val_three]
      show (b.val * 512 + s.val) * 8192 + v.val = (512 * b.val + s.val) * 8192 + v.val
      omega
    · rw [right_eq]
      rfl

end Cert.KernelIdeal.Whole

end
-- ==== Proof.Reference.lean ====
/-
  The reference program computes the common function.

  Its two operations are a contraction of axis 2 of the first argument [16, 512, 8192] with axis 1 of the second
  [512, 8192] — entry (b, s, d) is the sum over the 8192 positions `v` of the first at (b, s, v) times the second at
  (d, v) — followed by the hyperbolic tangent entry by entry. Read over the extended reals, operation by operation,
  that is `Spec.tanhProduct` of the arguments.
-/
import proofs.«122195_j53936199303290_2_alg».proof.Proof.Gen.ReferenceIdeal.Read
import proofs.«122195_j53936199303290_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The contraction reads its left operand at (b, s, v) and its right operand at (d, v). -/
theorem left_index (i : S16x512x512.Idx) (k : Fin 8192) : lidx_main_v0 i k = ix3 (i 0) (i 1) k :=
  funext fun a => Fin.ext (by match a with | ⟨0, _⟩ => rfl | ⟨1, _⟩ => rfl | ⟨2, _⟩ => rfl)
theorem right_index (i : S16x512x512.Idx) (k : Fin 8192) : ridx_main_v0 i k = ix2 (i 2) k :=
  funext fun a => Fin.ext (by match a with | ⟨0, _⟩ => rfl | ⟨1, _⟩ => rfl)

/-- The reference's result, as a function of its arguments, is the tangent of the row-by-row products. -/
theorem reference_eq (x : (⟨S16x512x8192, .f32⟩ : BufTy).Contents (Elt Ideal)) (w : (⟨S512x8192, .f32⟩ : BufTy).Contents (Elt Ideal)) :
    val_main_v1 (F := Ideal) x w = Spec.tanhProduct x w := by
  funext i
  rw [val_main_v1_apply, val_main_v0_apply]
  unfold Spec.tanhProduct
  exact congrArg Ideal.tanh (Finset.sum_congr rfl fun k _ =>
    congrArg₂ (· * ·) (congrArg x (left_index i k)) (congrArg w (right_index i k)))

end Cert.ReferenceIdeal.RefValue

end
-- ==== Proof.lean ====
/-
  tanh of a matrix product, chunked over the contracted axis, against tanh of an einsum.

  Both programs take `x` of shape [16, 512, 8192] and `w` of shape [512, 8192] and return, over the extended reals,

      out (b, s, d) = tanh ( Σ_{v < 8192}  x (b, s, v) · w (d, v) ).

  The reference contracts axis 2 of `x` with axis 1 of `w` in one operation and applies the tangent. The kernel
  flattens (b, s) to 8192 rows, cuts them into eight row groups of 1024 and the 8192 contracted positions into four
  chunks of 2048, and for each row group clears a [1024, 512] accumulator, adds the four chunk products to it one
  after the other, and writes the tangent of the accumulator out after the fourth; changes of float format on the way
  are the identity on extended reals. The accumulator therefore ends each row group at (((0 + c₀) + c₁) + c₂) + c₃ of
  the four chunk sums, and regrouping a finite sum in a commutative monoid makes that the one-sweep sum: nothing is
  asked of the inputs (their finiteness is never used).

  The modules: ChunkSum (the regrouping law), Entries (array entries by natural-number coordinates), Spec (the common
  function), Step and StepValue (what one grid step leaves, as values and entry by entry), Blocks (what a step's
  input blocks hold), Accum (the accumulator across steps), Result (the region's output array), Whole (the program
  around the region and its result entry by entry), Reference (the reference is the common function). The kernel
  read over the extended reals is the kernel's own text with every operation exact: no operation was replaced by
  another, so the claim relating the two readings is empty.
-/
import proofs.«122195_j53936199303290_2_alg».proof.Defs
import proofs.«122195_j53936199303290_2_alg».proof.Proof.Gen.Kernel
import proofs.«122195_j53936199303290_2_alg».proof.Proof.Gen.Kernel.Skeleton
import proofs.«122195_j53936199303290_2_alg».proof.Proof.Gen.Kernel.Launch
import proofs.«122195_j53936199303290_2_alg».proof.Proof.Gen.Kernel.Points
import proofs.«122195_j53936199303290_2_alg».proof.Proof.Gen.Kernel.Frame
import proofs.«122195_j53936199303290_2_alg».proof.Proof.Gen.KernelIdeal
import proofs.«122195_j53936199303290_2_alg».proof.Proof.Gen.KernelIdeal.Skeleton
import proofs.«122195_j53936199303290_2_alg».proof.Proof.Gen.KernelIdeal.Launch
import proofs.«122195_j53936199303290_2_alg».proof.Proof.Gen.KernelIdeal.Points
import proofs.«122195_j53936199303290_2_alg».proof.Proof.Gen.KernelIdeal.Frame
import proofs.«122195_j53936199303290_2_alg».proof.Proof.Gen.ReferenceIdeal
import proofs.«122195_j53936199303290_2_alg».proof.Proof.Gen.Pre_finite_inputs
import proofs.«122195_j53936199303290_2_alg».proof.Proof.Gen.ReferenceIdeal.Run
import proofs.«122195_j53936199303290_2_alg».proof.Proof.Gen.ReferenceIdeal.Read
import proofs.«122195_j53936199303290_2_alg».proof.Proof.Whole
import proofs.«122195_j53936199303290_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is two host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the tangent of the row-by-row products of their (agreeing) arguments. -/
theorem algebraic : Cert.algebraic_KernelIdeal_ReferenceIdeal := by
  intro m ρ m' ρ' _ hagree
  refine ⟨fun c => Spec.tanhProduct (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Whole.result_eq m c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
